-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096x4096 : Shape := ⟨2, ![4096, 4096]⟩
abbrev S4096x128 : Shape := ⟨2, ![4096, 128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S128x4096 .f32) (main_arg1 : FVec F S4096x4096 .f32) (main_arg2 : FVec F S4096x128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S128x4096 : Shape := ⟨2, ![128, 4096]⟩
abbrev S4096x4096 : Shape := ⟨2, ![4096, 4096]⟩
abbrev S4096x128 : Shape := ⟨2, ![4096, 128]⟩
abbrev S512x4096 : Shape := ⟨2, ![512, 4096]⟩
abbrev S128x2048 : Shape := ⟨2, ![128, 2048]⟩
abbrev S512x2048 : Shape := ⟨2, ![512, 2048]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S4096x128, .f32⟩
  | .hbm, ⟨3, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S128x2048, .f32⟩
  | .local _ .vmem, ⟨4, _⟩ => ⟨S128x2048, .f32⟩
  | .local _ .vmem, ⟨5, _⟩ => ⟨S512x2048, .f32⟩
  | .local _ .vmem, ⟨6, _⟩ => ⟨S512x2048, .f32⟩
  | .local _ .vmem, ⟨7, _⟩ => ⟨S512x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2048_S128x2048_0_0 : ∀ a, (![0, 0] : Fin 2 → Nat) a + S128x2048.size a ≤ S128x2048.size a
  h_S128x2048 : 0 < S128x2048.numel
  inb_S512x2048_S512x2048_0_0 : ∀ a, (![0, 0] : Fin 2 → Nat) a + S512x2048.size a ≤ S512x2048.size a
  h_S512x2048 : 0 < S512x2048.numel
  dot_S512x4096_S4096x128_S512x128_1_0_0_1_n_n_wf : DotDims.WF S512x4096 S4096x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x4096.size a
  hwx0_2 : ∀ i : grid0.Coords, EltTy.bits .f32 = 32 ∨ (Rect.block (s := S128x4096) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4096 : Shape := ⟨2, ![128, 4096]⟩
abbrev S4096x4096 : Shape := ⟨2, ![4096, 4096]⟩
abbrev S4096x128 : Shape := ⟨2, ![4096, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S4096x128, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x128_S128x4096_S4096x4096_1_0_0_1_n_n_wf : DotDims.WF S4096x128 S128x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Assoc.lean ====
/-
  Associativity of a product of three matrices, entry by entry, for real entries and for
  extended-real entries that are all real numbers:
    the sum over j of (the sum over k of a k * w k j) * f j
      = the sum over k of a k * (the sum over j of w k j * f j).
  Over the extended reals the law needs every entry finite: it rests on distributivity, which
  fails at the infinities.
-/
import Mathlib

namespace Cert.Assoc

/-- (A W) F = A (W F) at one entry, over the reals: distribute both ways and exchange the two sums. -/
theorem real_assoc {K J : Type} [Fintype K] [Fintype J] (a : K → ℝ) (w : K → J → ℝ) (f : J → ℝ) :
    (∑ j, (∑ k, a k * w k j) * f j) = ∑ k, a k * ∑ j, w k j * f j := by
  simp only [Finset.sum_mul, Finset.mul_sum]
  rw [Finset.sum_comm]
  refine Finset.sum_congr rfl fun k _ => Finset.sum_congr rfl fun j _ => ?_
  ring

/-- The inclusion of the reals in the extended reals commutes with finite sums. -/
theorem coe_sum {ι : Type} (s : Finset ι) (g : ι → ℝ) :
    ((∑ i ∈ s, g i : ℝ) : EReal) = ∑ i ∈ s, (g i : EReal) := by
  classical
  refine Finset.induction_on s (by simp) fun a s ha ih => ?_
  rw [Finset.sum_insert ha, Finset.sum_insert ha, EReal.coe_add, ih]

/-- The same law over the extended reals, when every entry of the three matrices is a real number. -/
theorem ereal_assoc {K J : Type} [Fintype K] [Fintype J] (a : K → EReal) (w : K → J → EReal) (f : J → EReal)
    (ha : ∀ k, ∃ r : ℝ, a k = (r : EReal)) (hw : ∀ k j, ∃ r : ℝ, w k j = (r : EReal))
    (hf : ∀ j, ∃ r : ℝ, f j = (r : EReal)) :
    (∑ j, (∑ k, a k * w k j) * f j) = ∑ k, a k * ∑ j, w k j * f j := by
  choose a' ha' using ha
  choose w' hw' using hw
  choose f' hf' using hf
  simp only [ha', hw', hf']
  have h := congrArg (fun x : ℝ => (x : EReal)) (real_assoc a' w' f')
  simpa only [coe_sum, EReal.coe_mul] using h

end Cert.Assoc
-- ==== Proof.Spec.lean ====
/-
  The result of the graph layer as one function of the three argument arrays, entry by entry, in
  the two arrangements the two programs compute it in.  With F the features (128 x 4096), A the
  adjacency matrix (4096 x 4096) and W the weights (4096 x 128), entry (r, c) of the result is
    max ( sum_j (sum_k A(r,k) W(k,j)) F(j,c) , 0 )      -- (A W) F, the product through the narrow middle first
  or
    max ( sum_k A(r,k) (sum_j W(k,j) F(j,c)) , 0 )      -- A (W F), the wide product first.
  The two agree when every entry of the three arrays is a real number (associativity of the matrix
  product; over the extended reals it needs finiteness, since it rests on distributivity).
-/
import Idealize.ShloMosaic.PureOps.Ideal
import Idealize.ShloMosaic.Lib.ValueIdx
import proofs.«143864_g18554258718905_cont_8to1_1676_9_alg».proof.Proof.Assoc

noncomputable section

namespace Cert.Gnn

open Idealize.ShloMosaic Idealize.ShloMosaic.ValueIdx

abbrev SFN : Shape := ⟨2, ![128, 4096]⟩
abbrev SNN : Shape := ⟨2, ![4096, 4096]⟩
abbrev SNF : Shape := ⟨2, ![4096, 128]⟩

/-- The zero the rectifier compares against, as both programs spell it. -/
abbrev zero : EReal := Ideal.ofBits .f32 0x00000000#32

/-- Entry (r, q) of the narrow product A W. -/
def aw (a : SNN.Idx → EReal) (w : SNF.Idx → EReal) (r : Fin 4096) (q : Fin 128) : EReal :=
  ∑ k : Fin 4096, a (ix2 r k) * w (ix2 k q)

/-- relu ((A W) F), entry by entry. -/
def narrowFirst (f : SFN.Idx → EReal) (a : SNN.Idx → EReal) (w : SNF.Idx → EReal) : SNN.Idx → EReal :=
  fun i => max (∑ j : Fin 128, aw a w (i 0) j * f (ix2 j (i 1))) zero

/-- relu (A (W F)), entry by entry. -/
def wideFirst (f : SFN.Idx → EReal) (a : SNN.Idx → EReal) (w : SNF.Idx → EReal) : SNN.Idx → EReal :=
  fun i => max (∑ k : Fin 4096, a (ix2 (i 0) k) * ∑ j : Fin 128, w (ix2 k j) * f (ix2 j (i 1))) zero

/-- An array all of whose entries are real numbers. -/
def AllReal {s : Shape} (x : s.Idx → EReal) : Prop := ∀ i, ∃ r : ℝ, x i = (r : EReal)

/-- On arrays of real numbers the two arrangements are one function. -/
theorem narrowFirst_eq_wideFirst (f : SFN.Idx → EReal) (a : SNN.Idx → EReal) (w : SNF.Idx → EReal)
    (hf : AllReal f) (ha : AllReal a) (hw : AllReal w) : narrowFirst f a w = wideFirst f a w := by
  funext i
  unfold narrowFirst wideFirst aw
  rw [Cert.Assoc.ereal_assoc (fun k : Fin 4096 => a (ix2 (i 0) k)) (fun (k : Fin 4096) (j : Fin 128) => w (ix2 k j))
    (fun j : Fin 128 => f (ix2 j (i 1))) (fun k => ha _) (fun k j => hw _) (fun j => hf _)]

end Cert.Gnn

end
-- ==== Proof.Finite.lean ====
/-
  What the precondition says: each of the three argument arrays holds real numbers only.
  The precondition is the conjunction, over the three arrays, of "every entry x has |x| < +infinity";
  an extended real whose absolute value max x (-x) lies strictly below +infinity is neither infinity,
  so it is a real number.
-/
import proofs.«143864_g18554258718905_cont_8to1_1676_9_alg».proof.Pre_finite_inputs
import proofs.«143864_g18554258718905_cont_8to1_1676_9_alg».proof.Proof.Spec
import Idealize.ShloMosaic.Lib.ReduceAll
import Idealize.ShloMosaic.PureOps.Ideal

noncomputable section

namespace Cert.Gnn

open Idealize.ShloMosaic Idealize.ShloMosaic.ValueIdx

/-- The scalar shape has one index. -/
instance : Subsingleton Cert.Pre_finite_inputs.S_.Idx := ⟨fun a b => funext fun d => d.elim0⟩

/-- The word 0x7F800000 denotes +infinity. -/
theorem inf_word : Ideal.ofBits .f32 0x7F800000#32 = (⊤ : EReal) := by
  simp [Ideal.ofBits, Ideal.ieee]

/-- An extended real with |x| < +infinity is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- The precondition, evaluated to all ones, makes every entry of every argument array a real number. -/
theorem allReal_of_pre [Cert.Pre_finite_inputs.Facts] (x0 : FVec Ideal Cert.Pre_finite_inputs.S128x4096 .f32)
    (x1 : FVec Ideal Cert.Pre_finite_inputs.S4096x4096 .f32) (x2 : FVec Ideal Cert.Pre_finite_inputs.S4096x128 .f32)
    (h : Cert.Pre_finite_inputs.fn (F := Ideal) x0 x1 x2 = fun _ => 1#1) :
    AllReal (s := SFN) x0 ∧ AllReal (s := SNN) x1 ∧ AllReal (s := SNF) x2 := by
  have h0 := congrFun h ix0
  dsimp only [Cert.Pre_finite_inputs.fn] at h0
  obtain ⟨h01, h2⟩ := IntOp.andi_eq_one.1 h0
  obtain ⟨h0', h1'⟩ := IntOp.andi_eq_one.1 h01
  refine ⟨fun i => ?_, fun i => ?_, fun i => ?_⟩
  · exact real_of_abs_lt _ (Host.reduce_andi_all _ _ _ _ ix0 h0' i)
  · exact real_of_abs_lt _ (Host.reduce_andi_all _ _ _ _ ix0 h1' i)
  · exact real_of_abs_lt _ (Host.reduce_andi_all _ _ _ _ ix0 h2 i)

end Cert.Gnn

end
-- ==== Proof.RefValue.lean ====
/-
  The reference computes relu (A (W F)): read entry by entry, its result is the wide-first
  arrangement of the specification — the inner product over the 128 feature rows first, then the
  product over the 4096 columns of the adjacency matrix, then the maximum with zero.
-/
import proofs.«143864_g18554258718905_cont_8to1_1676_9_alg».proof.Proof.Gen.ReferenceIdeal.Read
import proofs.«143864_g18554258718905_cont_8to1_1676_9_alg».proof.Proof.Spec

noncomputable section

namespace Cert.ReferenceIdeal.RefValue

open Cert.ReferenceIdeal Cert.ReferenceIdeal.Read Idealize.ShloMosaic Idealize.ShloMosaic.ValueIdx

/-- The left operand of the outer product is read at (row of the entry, k). -/
theorem lidx_v1 (i : S4096x4096.Idx) (k : Fin 4096) : lidx_main_v1 i k = ix2 (i 0) k :=
  funext fun a => by match a with | ⟨0, _⟩ => rfl | ⟨1, _⟩ => rfl

/-- The left operand of the inner product, met by the outer one at (k, column of the entry), is read at (k, j). -/
theorem lidx_v0 (i : S4096x4096.Idx) (k : Fin 4096) (j : Fin 128) : lidx_main_v0 (ridx_main_v1 i k) j = ix2 k j :=
  funext fun a => by match a with | ⟨0, _⟩ => rfl | ⟨1, _⟩ => rfl

/-- The right operand of the inner product is read at (j, column of the entry). -/
theorem ridx_v0 (i : S4096x4096.Idx) (k : Fin 4096) (j : Fin 128) : ridx_main_v0 (ridx_main_v1 i k) j = ix2 j (i 1) :=
  funext fun a => by match a with | ⟨0, _⟩ => rfl | ⟨1, _⟩ => rfl

/-- The reference's result, as a function of the three argument arrays, is relu (A (W F)) entry by entry. -/
theorem ref_eq (x0 : (⟨S128x4096, .f32⟩ : BufTy).Contents (Elt Ideal)) (x1 : (⟨S4096x4096, .f32⟩ : BufTy).Contents (Elt Ideal))
    (x2 : (⟨S4096x128, .f32⟩ : BufTy).Contents (Elt Ideal)) :
    val_main_v2 (F := Ideal) x0 x1 x2 = Cert.Gnn.wideFirst x0 x1 x2 := by
  funext i
  rw [val_main_v2_apply, val_main_v1_apply, val_main_call0_v0_apply, val_main_call0_cst_apply]
  simp only [val_main_v0_apply, lidx_v1, lidx_v0, ridx_v0, Ideal.maximumf_def, Ideal.ofBits_def]
  rfl

end Cert.ReferenceIdeal.RefValue

end
-- ==== Proof.KernelPieces.lean ====
/-
  What one run of the kernel body leaves behind, as values of its loaded blocks.  With X the block of
  adjacency rows, W the weights, Fb the block of feature columns and S what the scratch buffer held:
    at the first column step of a row block the scratch ends holding  X W  (a matmul into a zero
      accumulator) and the output block  relu ((X W) Fb)  — the scratch is stored, then read back;
    at a later column step the scratch is untouched and the output block is  relu (S Fb).
  Each store writes its whole buffer through the zero offsets, and each load reads a whole buffer,
  so the stored payloads are the buffers' contents.
-/
import proofs.«143864_g18554258718905_cont_8to1_1676_9_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later column step: the output block is the second payload of the carried scratch and the feature block. -/
theorem out_later (c : Dev nD) (i : grid0.Coords) (a2 : Memref sig .tc .vmem S512x4096 .f32) (h2 : a2.IsWhole)
    (a3 : Memref sig .tc .vmem S4096x128 .f32) (h3 : a3.IsWhole) (a4 : Memref sig .tc .vmem S128x2048 .f32) (h4 : a4.IsWhole)
    (a5 : Memref sig .tc .vmem S512x2048 .f32) (h5 : a5.IsWhole) (a6 : Memref sig .tc .vmem S512x128 .f32) (h6 : a6.IsWhole)
    (hc : ¬cond0_0 i) (x0 : Vec F S512x4096 .f32) (x1 : Vec F S4096x128 .f32) (x2 : Vec F S128x2048 .f32) (xs : Vec F S512x128 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h6.read_unread, h4.read_unread, View.ld_unit_zero (S := S512x128) hz,
    View.ld_unit_zero (S := S128x2048) hz]

/-- The first column step: the scratch ends holding the first payload of the adjacency block and the weights. -/
theorem scratch_first (c : Dev nD) (i : grid0.Coords) (a2 : Memref sig .tc .vmem S512x4096 .f32) (h2 : a2.IsWhole)
    (a3 : Memref sig .tc .vmem S4096x128 .f32) (h3 : a3.IsWhole) (a4 : Memref sig .tc .vmem S128x2048 .f32) (h4 : a4.IsWhole)
    (a5 : Memref sig .tc .vmem S512x2048 .f32) (h5 : a5.IsWhole) (a6 : Memref sig .tc .vmem S512x128 .f32) (h6 : a6.IsWhole)
    (hc : cond0_0 i) (x0 : Vec F S512x4096 .f32) (x1 : Vec F S4096x128 .f32) (x2 : Vec F S128x2048 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S512x4096) hz,
    View.ld_unit_zero (S := S4096x128) hz]

/-- The first column step: the output block is the second payload of that scratch, read back, and the feature block. -/
theorem out_first (c : Dev nD) (i : grid0.Coords) (a2 : Memref sig .tc .vmem S512x4096 .f32) (h2 : a2.IsWhole)
    (a3 : Memref sig .tc .vmem S4096x128 .f32) (h3 : a3.IsWhole) (a4 : Memref sig .tc .vmem S128x2048 .f32) (h4 : a4.IsWhole)
    (a5 : Memref sig .tc .vmem S512x2048 .f32) (h5 : a5.IsWhole) (a6 : Memref sig .tc .vmem S512x128 .f32) (h6 : a6.IsWhole)
    (hc : cond0_0 i) (x0 : Vec F S512x4096 .f32) (x1 : Vec F S4096x128 .f32) (x2 : Vec F S128x2048 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S512x128) _ hz]
  simp only [View.readAt_eq_ld, h2.read_unread, h3.read_unread, h4.read_unread, View.ld_unit_zero (S := S512x4096) hz,
    View.ld_unit_zero (S := S4096x128) hz, View.ld_unit_zero (S := S128x2048) hz]

end Cert.KernelIdeal.Pieces

end
-- ==== Proof.KernelPayload.lean ====
/-
  The two payloads of the kernel body, read entry by entry over the extended reals.
  The first is a matmul of a 512 x 4096 block X with the 4096 x 128 weights W into a zero accumulator:
  its entry (p, q) is the sum over k of X(p,k) W(k,q).  The second multiplies a 512 x 128 matrix S with a
  128 x 2048 block Fb into a zero accumulator and takes the maximum with a splat zero: its entry (p, q) is
  max (sum over j of S(p,j) Fb(j,q), 0).  In both, the contraction runs over axis 1 of the left operand
  and axis 0 of the right one, so the operands are read at (p, k) and (k, q).
-/
import proofs.«143864_g18554258718905_cont_8to1_1676_9_alg».proof.Proof.Gen.KernelIdeal.Skeleton
import proofs.«143864_g18554258718905_cont_8to1_1676_9_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-! ### The contraction d1 -/

theorem d1_l0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem d1_l1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
theorem d1_r0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
theorem d1_r1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-! ### The contraction d2 -/

theorem d2_l0 (i : S512x2048.Idx) (q : dot_S512x128_S128x2048_S512x2048_1_0_0_1_n_n.contr.Idx) : (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem d2_l1 (i : S512x2048.Idx) (q : dot_S512x128_S128x2048_S512x2048_1_0_0_1_n_n.contr.Idx) : (dot_S512x128_S128x2048_S512x2048_1_0_0_1_n_n.lhsIdx i q 1).val = (q ⟨0, by decide⟩).val :=
  dot_S512x128_S128x2048_S512x2048_1_0_0_1_n_n.lhsIdx_val_of_single rfl i q
theorem d2_r0 (i : S512x2048.Idx) (q : dot_S512x128_S128x2048_S512x2048_1_0_0_1_n_n.contr.Idx) : (dot_S512x128_S128x2048_S512x2048_1_0_0_1_n_n.rhsIdx i q 0).val = (q ⟨0, by decide⟩).val :=
  dot_S512x128_S128x2048_S512x2048_1_0_0_1_n_n.rhsIdx_val_of_single rfl i q
theorem d2_r1 (i : S512x2048.Idx) (q : dot_S512x128_S128x2048_S512x2048_1_0_0_1_n_n.contr.Idx) : (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- Entry (p, q) of the first payload: the row p of the adjacency block against the column q of the weights. -/
theorem pay1_apply (x0 : Vec Ideal S512x4096 .f32) (x1 : Vec Ideal S4096x128 .f32) (p : Fin 512) (q : Fin 128) :
    k0_pay1 (F := Ideal) x0 x1 (ix2 p q) = ∑ k : Fin 4096, x0 (ix2 p k) * x1 (ix2 k q) := by
  unfold k0_pay1
  rw [shapeCast_self]
  refine (Ideal.matmul_constant_zero_apply dot_S512x4096_S4096x128_S512x128_1_0_0_1_n_n none x0 x1 (ix2 p q)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p q) ((contrEquiv1 dot_S512x4096_S4096x128_S512x128_1_0_0_1_n_n 4096 rfl rfl).symm k) = ix2 p k := funext fun a => Fin.ext (by
    match a with
    | ⟨0, _⟩ => exact d1_l0 _ _
    | ⟨1, _⟩ => exact (d1_l1 _ _).trans hk)
  have er : dot_S512x4096_S4096x128_S512x128_1_0_0_1_n_n.rhsIdx (ix2 p q) ((contrEquiv1 dot_S512x4096_S4096x128_S512x128_1_0_0_1_n_n 4096 rfl rfl).symm k) = ix2 k q := funext fun a => Fin.ext (by
    match a with
    | ⟨0, _⟩ => exact (d1_r0 _ _).trans hk
    | ⟨1, _⟩ => exact d1_r1 _ _)
  rw [el, er]

/-- Entry (p, q) of the second payload: the rectified product of row p of the scratch with column q of the feature block. -/
theorem pay2_apply (s : Vec Ideal S512x128 .f32) (x2 : Vec Ideal S128x2048 .f32) (p : Fin 512) (q : Fin 2048) :
    k0_pay2 (F := Ideal) s x2 (ix2 p q) = max (∑ j : Fin 128, s (ix2 p j) * x2 (ix2 j q)) Cert.Gnn.zero := by
  unfold k0_pay2
  refine (congrArg (fun x => max x Cert.Gnn.zero) (Ideal.matmul_constant_zero_apply dot_S512x128_S128x2048_S512x2048_1_0_0_1_n_n none s x2 (ix2 p q))).trans ?_
  rw [← Equiv.sum_comp (contrEquiv1 dot_S512x128_S128x2048_S512x2048_1_0_0_1_n_n 128 rfl rfl).symm]
  refine congrArg (fun x => max x Cert.Gnn.zero) (Finset.sum_congr rfl fun k _ => ?_)
  have hk := contrEquiv1_symm_val dot_S512x128_S128x2048_S512x2048_1_0_0_1_n_n 128 rfl rfl k
  have el : dot_S512x128_S128x2048_S512x2048_1_0_0_1_n_n.lhsIdx (ix2 p q) ((contrEquiv1 dot_S512x128_S128x2048_S512x2048_1_0_0_1_n_n 128 rfl rfl).symm k) = ix2 p k := funext fun a => Fin.ext (by
    match a with
    | ⟨0, _⟩ => exact d2_l0 _ _
    | ⟨1, _⟩ => exact (d2_l1 _ _).trans hk)
  have er : dot_S512x128_S128x2048_S512x2048_1_0_0_1_n_n.rhsIdx (ix2 p q) ((contrEquiv1 dot_S512x128_S128x2048_S512x2048_1_0_0_1_n_n 128 rfl rfl).symm k) = ix2 k q := funext fun a => Fin.ext (by
    match a with
    | ⟨0, _⟩ => exact (d2_r0 _ _).trans hk
    | ⟨1, _⟩ => exact d2_r1 _ _)
  rw [el, er]

end Cert.KernelIdeal.Payload

end
-- ==== Proof.KernelBlocks.lean ====
/-
  The two payloads on blocks of the whole arrays.  The grid cuts the 4096 rows of the result into 8 row
  blocks of 512 and its 4096 columns into 2 column blocks of 2048.  In row block R the adjacency block
  holds rows 512 R + p; in column block C the feature block holds columns 2048 C + q.  So the first
  payload, on the adjacency block of row block R and the whole weights, is rows 512 R .. 512 R + 511 of
  the narrow product A W; and the second payload, on those rows and the feature block of column block C,
  is block (R, C) of relu ((A W) F).
-/
import proofs.«143864_g18554258718905_cont_8to1_1676_9_alg».proof.Proof.KernelPayload

noncomputable section

open Idealize.ShloMosaic Idealize.ShloMosaic.ValueIdx

namespace Cert.KernelIdeal.Blocks

open Cert.KernelIdeal Cert.KernelIdeal.Gen Cert.Gnn

/-- Row p of row block R, as a row of the whole array (reduced mod 4096, which changes nothing for R < 8). -/
def rowOf (R : ℕ) (p : Fin 512) : Fin 4096 := ⟨(512 * R + p.val) % 4096, Nat.mod_lt _ (by omega)⟩

/-- Column q of column block C, as a column of the whole array (reduced mod 4096, which changes nothing for C < 2). -/
def colOf (C : ℕ) (q : Fin 2048) : Fin 4096 := ⟨(2048 * C + q.val) % 4096, Nat.mod_lt _ (by omega)⟩

/-- Rows 512 R .. 512 R + 511 of the narrow product A W: what the scratch holds throughout row block R. -/
def scratchOf (a : SNN.Idx → EReal) (w : SNF.Idx → EReal) (R : ℕ) : Vec Ideal S512x128 .f32 :=
  fun y => aw a w (rowOf R (y 0)) (y 1)

/-- Block (R, C) of relu ((A W) F). -/
def blockOf (f : SFN.Idx → EReal) (a : SNN.Idx → EReal) (w : SNF.Idx → EReal) (R C : ℕ) : Vec Ideal S512x2048 .f32 :=
  fun y => narrowFirst f a w (ix2 (rowOf R (y 0)) (colOf C (y 1)))

/-- The first payload on the adjacency rows of row block R and the whole weights. -/
theorem pay1_of (x0 : Vec Ideal S512x4096 .f32) (x1 : Vec Ideal S4096x128 .f32) (a : SNN.Idx → EReal) (w : SNF.Idx → EReal) (R : ℕ)
    (h0 : ∀ (p : Fin 512) (k : Fin 4096), x0 (ix2 p k) = a (ix2 (rowOf R p) k))
    (h1 : ∀ (k : Fin 4096) (q : Fin 128), x1 (ix2 k q) = w (ix2 k q)) :
    k0_pay1 (F := Ideal) x0 x1 = scratchOf a w R := by
  funext y
  obtain ⟨p, q, rfl⟩ : ∃ (p : Fin 512) (q : Fin 128), y = ix2 p q := ⟨y 0, y 1, eq_ix2 y⟩
  rw [Payload.pay1_apply]
  unfold scratchOf aw
  exact Finset.sum_congr rfl fun k _ => congrArg₂ (· * ·) (h0 p k) (h1 k q)

/-- The second payload on those rows of A W and the feature columns of column block C. -/
theorem pay2_of (s : Vec Ideal S512x128 .f32) (x2 : Vec Ideal S128x2048 .f32) (f : SFN.Idx → EReal) (a : SNN.Idx → EReal)
    (w : SNF.Idx → EReal) (R C : ℕ) (hs : s = scratchOf a w R)
    (h2 : ∀ (j : Fin 128) (q : Fin 2048), x2 (ix2 j q) = f (ix2 j (colOf C q))) :
    k0_pay2 (F := Ideal) s x2 = blockOf f a w R C := by
  subst hs
  funext y
  obtain ⟨p, q, rfl⟩ : ∃ (p : Fin 512) (q : Fin 2048), y = ix2 p q := ⟨y 0, y 1, eq_ix2 y⟩
  rw [Payload.pay2_apply]
  unfold blockOf narrowFirst
  refine congrArg (fun x => max x zero) (Finset.sum_congr rfl fun j _ => ?_)
  exact congrArg₂ (· * ·) rfl (h2 j q)

end Cert.KernelIdeal.Blocks

end
-- ==== Proof.KernelValue.lean ====
/-
  What the kernel's result array holds after the run, over the extended reals: relu ((A W) F), entry by entry.

  The 16 grid points run in order t = 0 .. 15; point t is row block t / 2 and column block t % 2.  At an
  even point the body computes rows 512 (t/2) .. of A W into the scratch and keeps them there; the odd
  point after it finds them unchanged.  So after every point t the scratch holds the rows of A W of row
  block t / 2 (induction on the point), and the output block written back at point t is block
  (t / 2, t % 2) of relu ((A W) F): the second payload of those rows and of the feature columns of column
  block t % 2.  The 16 output blocks tile the 4096 x 4096 result, so the whole array is that function.
-/
import proofs.«143864_g18554258718905_cont_8to1_1676_9_alg».proof.Proof.Gen.KernelIdeal.Value
import proofs.«143864_g18554258718905_cont_8to1_1676_9_alg».proof.Proof.KernelPieces
import proofs.«143864_g18554258718905_cont_8to1_1676_9_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.GnnValue

open Cert.KernelIdeal Cert.KernelIdeal.Gen Cert.KernelIdeal.Blocks Cert.Gnn

variable (m : (ℓ : Loc nD τ sig) → Buf (Elt Ideal) ℓ) (ρ : Dev nD → PrngReg)

/-- The three argument arrays as the region finds them: features F, adjacency A, weights W. -/
abbrev feat (c : Dev nD) : SFN.Idx → EReal := V m c main_arg0
abbrev adj (c : Dev nD) : SNN.Idx → EReal := V m c main_arg1
abbrev wts (c : Dev nD) : SNF.Idx → EReal := V m c main_arg2

/-- The block indices of the four windows at point t: the adjacency and output windows are in row block
    t / 2, the feature and output windows in column block t % 2, the weights are one block. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = t.val % 2 :=
  (by decide +kernel : ∀ t : Fin grid0.N, _)

/-- The adjacency block at point t holds rows 512 (t / 2) + p of A. -/
theorem adj_block (c : Dev nD) (t : Fin cfg0.N) (p : Fin 512) (k : Fin 4096) :
    (iblk m c 0 t : Vec Ideal S512x4096 .f32) (ix2 p k) = adj m c (ix2 (rowOf (t.val / 2) p) k) := by
  obtain ⟨e0, e1, -⟩ := idx_facts t
  have hN : t.val < 16 := lt_of_lt_of_eq t.isLt (show cfg0.N = 16 from N_0)
  unfold iblk
  rw [View.read_apply]
  show V m c main_arg1 _ = V m c main_arg1 _
  congr 1
  funext a
  apply Fin.ext
  match a with
  | ⟨0, _⟩ =>
    show win0_0.index t (0 : Fin 2) * 512 + 1 * p.val = (512 * (t.val / 2) + p.val) % 4096
    have := p.isLt; omega
  | ⟨1, _⟩ =>
    show win0_0.index t (1 : Fin 2) * 4096 + 1 * k.val = k.val
    omega

/-- The weights block at every point is the whole of W. -/
theorem wts_block (c : Dev nD) (t : Fin cfg0.N) (k : Fin 4096) (q : Fin 128) :
    (iblk m c 1 t : Vec Ideal S4096x128 .f32) (ix2 k q) = wts m c (ix2 k q) := by
  obtain ⟨-, -, e0, e1, -⟩ := idx_facts t
  unfold iblk
  rw [View.read_apply]
  show V m c main_arg2 _ = V m c main_arg2 _
  congr 1
  funext a
  apply Fin.ext
  match a with
  | ⟨0, _⟩ =>
    show win0_1.index t (0 : Fin 2) * 4096 + 1 * k.val = k.val
    omega
  | ⟨1, _⟩ =>
    show win0_1.index t (1 : Fin 2) * 128 + 1 * q.val = q.val
    omega

/-- The feature block at point t holds columns 2048 (t % 2) + q of F. -/
theorem feat_block (c : Dev nD) (t : Fin cfg0.N) (j : Fin 128) (q : Fin 2048) :
    (iblk m c 2 t : Vec Ideal S128x2048 .f32) (ix2 j q) = feat m c (ix2 j (colOf (t.val % 2) q)) := by
  obtain ⟨-, -, -, -, e0, e1, -⟩ := idx_facts t
  unfold iblk
  rw [View.read_apply]
  show V m c main_arg0 _ = V m c main_arg0 _
  congr 1
  funext a
  apply Fin.ext
  match a with
  | ⟨0, _⟩ =>
    show win0_2.index t (0 : Fin 2) * 128 + 1 * j.val = j.val
    omega
  | ⟨1, _⟩ =>
    show win0_2.index t (1 : Fin 2) * 2048 + 1 * q.val = (2048 * (t.val % 2) + q.val) % 4096
    have := q.isLt; omega

/-! ## The body's three pieces at a point of the grid -/

theorem scratch_first_at (c : Dev nD) (t : Fin cfg0.N) (h0 : t.val % 2 = 0) :
    sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = k0_pay1 (F := Ideal) (iblk m c 0 t) (iblk m c 1 t) :=
  Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

theorem out_first_at (c : Dev nD) (t : Fin cfg0.N) (h0 : t.val % 2 = 0) :
    out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = k0_pay2 (F := Ideal) (k0_pay1 (F := Ideal) (iblk m c 0 t) (iblk m c 1 t)) (iblk m c 2 t) :=
  Pieces.out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

theorem out_later_at (c : Dev nD) (t : Fin cfg0.N) (h0 : ¬t.val % 2 = 0) (xs : Vec Ideal S512x128 .f32) :
    out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs
      = k0_pay2 (F := Ideal) xs (iblk m c 2 t) :=
  Pieces.out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs

/-- The first payload at point t is the rows of A W of row block t / 2. -/
theorem pay1_at (c : Dev nD) (t : Fin cfg0.N) :
    k0_pay1 (F := Ideal) (iblk m c 0 t) (iblk m c 1 t) = scratchOf (adj m c) (wts m c) (t.val / 2) :=
  pay1_of (iblk m c 0 t) (iblk m c 1 t) (adj m c) (wts m c) (t.val / 2) (adj_block m c t) (wts_block m c t)

/-! ## The body's three pieces at a point, as blocks of the whole arrays -/

/-- At an even point the scratch ends holding the rows of A W of the point's row block. -/
theorem scratch_first_eq (c : Dev nD) (t : Fin cfg0.N) (h0 : t.val % 2 = 0) :
    sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = scratchOf (adj m c) (wts m c) (t.val / 2) :=
  (scratch_first_at m c t h0).trans (pay1_at m c t)

/-- At an even point the output block is block (t / 2, t % 2) of relu ((A W) F). -/
theorem out_first_eq (c : Dev nD) (t : Fin cfg0.N) (h0 : t.val % 2 = 0) :
    out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
      = blockOf (feat m c) (adj m c) (wts m c) (t.val / 2) (t.val % 2) :=
  (out_first_at m c t h0).trans
    (pay2_of (k0_pay1 (F := Ideal) (iblk m c 0 t) (iblk m c 1 t)) (iblk m c 2 t) (feat m c) (adj m c) (wts m c)
      (t.val / 2) (t.val % 2) (pay1_at m c t) (feat_block m c t))

/-- At an odd point, over a scratch holding the rows of A W of the point's row block, the same. -/
theorem out_later_eq (c : Dev nD) (t : Fin cfg0.N) (h0 : ¬t.val % 2 = 0) (xs : Vec Ideal S512x128 .f32)
    (hs : xs = scratchOf (adj m c) (wts m c) (t.val / 2)) :
    out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) xs
      = blockOf (feat m c) (adj m c) (wts m c) (t.val / 2) (t.val % 2) :=
  (out_later_at m c t h0 xs).trans
    (pay2_of xs (iblk m c 2 t) (feat m c) (adj m c) (wts m c) (t.val / 2) (t.val % 2) hs (feat_block m c t))

/-! ## The scratch and the output block after each point -/

/-- After point t the carried scratch holds the rows of A W of row block t / 2: computed there if t is even,
    left from the point before if t is odd (which is in the same row block).  By induction on the point. -/
theorem scratch_eq (c : Dev nD) : ∀ (n : ℕ) (t : Fin cfg0.N), t.val = n →
    (outsAt0 m c t.val t.isLt).2 = scratchOf (adj m c) (wts m c) (t.val / 2) := by
  intro n
  induction n using Nat.strong_induction_on with
  | _ n ih =>
    intro t ht
    have hN : cfg0.N = 16 := N_0
    by_cases h0 : t.val % 2 = 0
    · rw [outsAt0_A m c t h0]
      dsimp only
      exact scratch_first_eq m c t h0
    · have hlt : t.val - 1 < cfg0.N := by omega
      have hs := ih (t.val - 1) (by omega) ⟨t.val - 1, hlt⟩ rfl
      have e : (t.val - 1) / 2 = t.val / 2 := by omega
      dsimp only at hs
      rw [e] at hs
      rw [outsAt0_B m c t h0]
      dsimp only
      unfold sout0_B_0
      exact hs

/-- The output block after point t is block (t / 2, t % 2) of relu ((A W) F). -/
theorem out_eq (c : Dev nD) (t : Fin cfg0.N) :
    (outsAt0 m c t.val t.isLt).1 = blockOf (feat m c) (adj m c) (wts m c) (t.val / 2) (t.val % 2) := by
  have hN : cfg0.N = 16 := N_0
  by_cases h0 : t.val % 2 = 0
  · rw [outsAt0_A m c t h0]
    dsimp only
    exact out_first_eq m c t h0
  · have hlt : t.val - 1 < cfg0.N := by omega
    have hs := scratch_eq m c (t.val - 1) ⟨t.val - 1, hlt⟩ rfl
    have e : (t.val - 1) / 2 = t.val / 2 := by omega
    dsimp only at hs
    rw [e] at hs
    rw [outsAt0_B m c t h0]
    dsimp only
    exact out_later_eq m c t h0 _ hs

/-! ## From the blocks to the whole array -/

/-- The result array: relu ((A W) F) of the argument arrays. -/
abbrev result (c : Dev nD) : Buf (Elt Ideal) ((c : Thread nD τ).loc main_v0) :=
  narrowFirst (feat m c) (adj m c) (wts m c)

/-- What point t writes back is block t of the result. -/
theorem flushed_eq (c : Dev nD) (t : Fin cfg0.N) :
    (dats m 0 c).flushed 3 t = ((cfg0.win 3).blk t).view.read (Elt Ideal) (result m c) := by
  obtain ⟨-, -, -, -, -, -, e0, e1⟩ := idx_facts t
  have hN : t.val < 16 := lt_of_lt_of_eq t.isLt (show cfg0.N = 16 from N_0)
  rw [Value.flushed3, out_eq]
  funext y
  show blockOf (feat m c) (adj m c) (wts m c) (t.val / 2) (t.val % 2) y = result m c (((cfg0.win 3).blk t).view.emb y)
  unfold blockOf
  refine congrArg (narrowFirst (feat m c) (adj m c) (wts m c)) ?_
  funext a
  apply Fin.ext
  match a with
  | ⟨0, _⟩ =>
    show (512 * (t.val / 2) + (y 0).val) % 4096 = win0_3.index t (0 : Fin 2) * 512 + 1 * (y 0).val
    have hy : (y 0).val < 512 := (y 0).isLt
    omega
  | ⟨1, _⟩ =>
    show (2048 * (t.val % 2) + (y 1).val) % 4096 = win0_3.index t (1 : Fin 2) * 2048 + 1 * (y 1).val
    have hy : (y 1).val < 2048 := (y 1).isLt
    omega

/-- An index of the array is in point t's block iff each coordinate is in the block's range on its axis. -/
theorem mem_blk (t : Fin cfg0.N) (i : S4096x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v0).slice (win0_3.rect t)).set ↔ _
  rw [View.set_slice_whole, Rect.mem_set_unit]
  exact Iff.rfl

/-- Every pair (row block, column block) is some point's. -/
theorem idx_onto : ∀ (q0 : Fin 8) (q1 : Fin 2), ∃ t : Fin cfg0.N, win0_3.index t = ![q0.val, q1.val] :=
  (by decide +kernel : ∀ (q0 : Fin 8) (q1 : Fin 2), ∃ t : Fin grid0.N, win0_3.index t = ![q0.val, q1.val])

/-- The 16 output blocks cover the array: entry (r, col) is in the block of row block r / 512 and column block col / 2048. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- So the result array ends holding relu ((A W) F). -/
theorem final (c : Dev nD) : (dats m 0 c).arrAt 3 cfg0.N = result m c :=
  (dats m 0 c).arrAt_eq_of_cover 3 (result m c) (fun t _ => flushed_eq m c t) cover

/-- The run, read: the result array at relu ((A W) F) of the arguments as launched, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.GnnValue

end
-- ==== Proof.lean ====
/-
  The graph layer  relu (A (W F))  against a kernel that computes  relu ((A W) F).

  The kernel reassociates the chain of two matrix products through its narrow middle (W has 128 columns):
  per row block of A it first forms the 512 x 128 product with W, keeps it in a scratch buffer across the
  two column steps, and multiplies it with a column block of F.  The reference multiplies W with F first.
  Over the extended reals the two are equal by associativity of the matrix product, which rests on
  distributivity and therefore on the precondition: every entry of the three arguments is a real number.

  The three frames are the generated ones (the reference's is its run with the result dropped); the ideal
  pass rewrote nothing, so the kernel's idealization is the kernel's own text; and the value claim sets the
  kernel's run, read block by block, beside the reference's run, read entry by entry.
-/
import proofs.«143864_g18554258718905_cont_8to1_1676_9_alg».proof.Defs
import proofs.«143864_g18554258718905_cont_8to1_1676_9_alg».proof.Proof.Gen.Kernel
import proofs.«143864_g18554258718905_cont_8to1_1676_9_alg».proof.Proof.Gen.Kernel.Skeleton
import proofs.«143864_g18554258718905_cont_8to1_1676_9_alg».proof.Proof.Gen.Kernel.Launch
import proofs.«143864_g18554258718905_cont_8to1_1676_9_alg».proof.Proof.Gen.Kernel.Points
import proofs.«143864_g18554258718905_cont_8to1_1676_9_alg».proof.Proof.Gen.Kernel.Frame
import proofs.«143864_g18554258718905_cont_8to1_1676_9_alg».proof.Proof.Gen.KernelIdeal
import proofs.«143864_g18554258718905_cont_8to1_1676_9_alg».proof.Proof.Gen.KernelIdeal.Skeleton
import proofs.«143864_g18554258718905_cont_8to1_1676_9_alg».proof.Proof.Gen.KernelIdeal.Launch
import proofs.«143864_g18554258718905_cont_8to1_1676_9_alg».proof.Proof.Gen.KernelIdeal.Points
import proofs.«143864_g18554258718905_cont_8to1_1676_9_alg».proof.Proof.Gen.KernelIdeal.Frame
import proofs.«143864_g18554258718905_cont_8to1_1676_9_alg».proof.Proof.Gen.ReferenceIdeal
import proofs.«143864_g18554258718905_cont_8to1_1676_9_alg».proof.Proof.Gen.KernelIdeal.Value
import proofs.«143864_g18554258718905_cont_8to1_1676_9_alg».proof.Proof.Gen.ReferenceIdeal.Run
import proofs.«143864_g18554258718905_cont_8to1_1676_9_alg».proof.Proof.Gen.ReferenceIdeal.Read
import proofs.«143864_g18554258718905_cont_8to1_1676_9_alg».proof.Proof.Gen.Pre_finite_inputs
import proofs.«143864_g18554258718905_cont_8to1_1676_9_alg».proof.Proof.Assoc
import proofs.«143864_g18554258718905_cont_8to1_1676_9_alg».proof.Proof.Spec
import proofs.«143864_g18554258718905_cont_8to1_1676_9_alg».proof.Proof.Finite
import proofs.«143864_g18554258718905_cont_8to1_1676_9_alg».proof.Proof.RefValue
import proofs.«143864_g18554258718905_cont_8to1_1676_9_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both runs end; the kernel's result array holds relu ((A W) F) and the reference's relu (A (W F)) of
    arguments that agree and, by the precondition, hold real numbers only: the same array. -/
theorem algebraic : Cert.algebraic_KernelIdeal_ReferenceIdeal := by
  intro m ρ m' ρ' hpre hagree
  refine ⟨fun c => Cert.KernelIdeal.GnnValue.result m c, Cert.KernelIdeal.GnnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1,
    (hagree c).2.2]
  obtain ⟨hf, ha, hw⟩ := Cert.Gnn.allReal_of_pre _ _ _ (hpre c)
  exact (Cert.Gnn.narrowFirst_eq_wideFirst _ _ _ hf ha hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
